-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x2048 : Shape := ⟨2, ![1024, 2048]⟩
abbrev S1024x128 : Shape := ⟨2, ![1024, 128]⟩
abbrev S2048x128 : Shape := ⟨2, ![2048, 128]⟩

abbrev nBuf : Space → Nat
  | .hbm => 3
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  dot_S1024x2048_S1024x128_S2048x128_0_0_1_1_n_n_wf : DotDims.WF S1024x2048 S1024x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)

variable [Facts₀]

def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .i1⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  transposes_S8192x8192_S8192x8192_1_0 : S8192x8192.Transposes [1, 0] S8192x8192
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Step.lean ====
/-
  What one grid step leaves in the two accumulators and in the output block, as a pure function of what it loaded.

  The grid is 4 x 8: for each of 4 blocks of 2048 hyperedges, 8 steps over blocks of 1024 vertices. Every step adds
  the block products `Hᵀ_blk · X_blk` and `Hᵀ_blk · 1` to the message and degree accumulators; the first step of a
  row of the grid zeroes both accumulators beforehand; the last step of a row then scales the message accumulator by
  the guarded reciprocal of the degree accumulator and stores the output block. So a step is in one of three cases
  (first, middle, last), and in each case the accumulators and the output are the arithmetic below of the loaded
  blocks and of the accumulators as the previous step left them: every store covers its whole buffer, so what a
  buffer holds afterwards is the last stored value, and a load after a store reads that value back.
-/
import proofs.«140889_j40303973106022_1_alg».proof.Proof.Gen.KernelIdeal.Frame
import Idealize.ShloMosaic.Lib.Pipeline.Value
import Idealize.ShloMosaic.Lib.Tactic

set_option maxRecDepth 16384

noncomputable section

namespace Cert.KernelIdeal.Step

open Cert.KernelIdeal Cert.KernelIdeal.Gen Idealize.ShloMosaic Idealize.ShloMosaic.TcCoe Idealize.SL.Sem Idealize.ShloMosaic.Tactic

variable {F : FTy → Type} [FloatOps F]

/-- Every access of the body starts at the origin of its buffer. -/
theorem hz : (![0, 0] : Fin 2 → Nat) = fun _ => 0 := funext fun a => by fin_cases a <;> rfl

/-! ## The three cases of a step -/

section
variable (c : Dev nD) (i : grid0.Coords) (arg2 : Memref sig .tc .vmem S1024x2048 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole)

/-- A middle step adds the block product to the message accumulator. -/
theorem scratch0_B (hc0 : ¬cond0_0 i) (hc1 : ¬cond0_1 i)
    (x0 : Vec F S1024x2048 .f32) (x1 : Vec F S1024x128 .f32) (xs0 xs1 : Vec F S2048x128 .f32) :
    sout0_B_0 c i arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg3.read_unread, harg5.read_unread,
    View.ld_unit_zero (S := S1024x2048) hz, View.ld_unit_zero (S := S1024x128) hz, View.ld_unit_zero (S := S2048x128) hz]

/-- A middle step adds the block's column sums to the degree accumulator. -/
theorem scratch1_B (hc0 : ¬cond0_0 i) (hc1 : ¬cond0_1 i)
    (x0 : Vec F S1024x2048 .f32) (x1 : Vec F S1024x128 .f32) (xs0 xs1 : Vec F S2048x128 .f32) :
    sout0_B_1 c i arg2 harg2 arg3 harg3 arg4 harg4 arg5 harg5 arg6 harg6 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hz]
  simp only [View.readAt_eq_ld, harg2.read_unread, harg6.read_unread,
    View.ld_unit_zero (S := S1024x2048) hz, View.ld_unit_zero (S := S2048x128) hz]

/-- The last step accumulates the message like a middle one, -/
theorem scratch0_C (hc0 : ¬cond0_0 i) (hc1 : cond0_1 i)
    (x0 : Vec F S1024x2048 .f32) (x1 : Vec F S1024x128 .f32) (xs0 xs1 : Vec F S2048x128 .f32) :
    sout0_C_0 c i arg2 harg2 arg3 harg3 arg4 harg4 arg5 harg5 arg6 harg6 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread,
    View.ld_unit_zero (S := S1024x2048) hz, View.ld_unit_zero (S := S1024x128) hz, View.ld_unit_zero (S := S2048x128) hz]

/-- and the degree, -/
theorem scratch1_C (hc0 : ¬cond0_0 i) (hc1 : cond0_1 i)
    (x0 : Vec F S1024x2048 .f32) (x1 : Vec F S1024x128 .f32) (xs0 xs1 : Vec F S2048x128 .f32) :
    sout0_C_1 c i arg2 harg2 arg3 harg3 arg4 harg4 arg5 harg5 arg6 harg6 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg6.read_unread,
    View.ld_unit_zero (S := S1024x2048) hz, View.ld_unit_zero (S := S2048x128) hz]

/-- and stores the scaled message, computed from the accumulators it has just updated. -/
theorem out_C (hc0 : ¬cond0_0 i) (hc1 : cond0_1 i)
    (x0 : Vec F S1024x2048 .f32) (x1 : Vec F S1024x128 .f32) (xs0 xs1 : Vec F S2048x128 .f32) :
    out0_C_2 c i arg2 harg2 arg3 harg3 arg4 harg4 arg5 harg5 arg6 harg6 hc0 hc1 x0 x1 xs0 xs1 = k0_pay6 (k0_pay5 x0 xs1) (k0_pay4 x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S2048x128) _ hz, View.readCov_unit_zero (S := S2048x128) _ hz]
  simp only [View.readAt_eq_ld, harg2.read_unread, harg3.read_unread, harg5.read_unread, harg6.read_unread,
    View.ld_unit_zero (S := S1024x2048) hz, View.ld_unit_zero (S := S1024x128) hz, View.ld_unit_zero (S := S2048x128) hz]

/-- The first step accumulates onto the zero block it has just stored: the message, -/
theorem scratch0_A (hc0 : cond0_0 i) (hc1 : ¬cond0_1 i)
    (x0 : Vec F S1024x2048 .f32) (x1 : Vec F S1024x128 .f32) :
    sout0_A_0 c i arg2 harg2 arg3 harg3 arg4 harg4 arg5 harg5 arg6 harg6 hc0 hc1 x0 x1 = k0_pay4 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x128) hz, View.readCov_unit_zero (S := S2048x128) _ hz]
  simp only [View.readAt_eq_ld, harg2.read_unread, harg3.read_unread,
    View.ld_unit_zero (S := S1024x2048) hz, View.ld_unit_zero (S := S1024x128) hz]

/-- and the degree. -/
theorem scratch1_A (hc0 : cond0_0 i) (hc1 : ¬cond0_1 i)
    (x0 : Vec F S1024x2048 .f32) (x1 : Vec F S1024x128 .f32) :
    sout0_A_1 c i arg2 harg2 arg3 harg3 arg4 harg4 arg5 harg5 arg6 harg6 hc0 hc1 x0 x1 = k0_pay5 x0 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S2048x128) hz, View.readCov_unit_zero (S := S2048x128) _ hz]
  simp only [View.readAt_eq_ld, harg2.read_unread,
    View.ld_unit_zero (S := S1024x2048) hz]

end

end Cert.KernelIdeal.Step
end
-- ==== Proof.Spec.lean ====
/-
  Mean aggregation of vertex features onto hyperedges, as one function of the two argument arrays.

  With `X : [8192, 128]` (one feature row per vertex) and `H : [8192, 8192]` (the incidence weights, vertex by
  hyperedge), the result at hyperedge `e` and feature `d` is

      (∑ₙ H[n, e] · X[n, d]) · r(∑ₙ H[n, e]),      r(s) = 0 if |1 / s| = +∞, else 1 / s,

  over the extended reals. Also here: the only law the two programs differ by, that a sum over `K · B` consecutive
  indices is the sum over `K` consecutive blocks of `B` — true in any commutative additive monoid, so no
  finiteness of the entries is ever used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shape of the feature array and of the result. -/
abbrev SX : Shape := ⟨2, ![8192, 128]⟩
/-- The shape of the incidence array. -/
abbrev SH : Shape := ⟨2, ![8192, 8192]⟩

/-- The weighted degree of hyperedge `e`: column `e` of `H` summed over the vertices. -/
def deg (H : SH.Idx → EReal) (e : Fin 8192) : EReal := ∑ n : Fin 8192, H (ix2 n e)

/-- The aggregated message of hyperedge `e` in feature `d`: entry `(e, d)` of `Hᵀ X`. -/
def msg (X : SX.Idx → EReal) (H : SH.Idx → EReal) (e : Fin 8192) (d : Fin 128) : EReal :=
  ∑ n : Fin 8192, H (ix2 n e) * X (ix2 n d)

/-- The guarded reciprocal: `1 / s`, replaced by `0` where its absolute value is `+∞` (an empty hyperedge). -/
def recip (s : EReal) : EReal :=
  Scalar.select
    (Ideal.cmp .oeq (max (Ideal.div (Ideal.ofBits .f32 0x3F800000#32) s) (-(Ideal.div (Ideal.ofBits .f32 0x3F800000#32) s)))
      (Ideal.ofBits .f32 0x7F800000#32))
    (Ideal.ofBits .f32 0x00000000#32) (Ideal.div (Ideal.ofBits .f32 0x3F800000#32) s)

/-- THE RESULT: the aggregated message scaled by the guarded reciprocal of the degree. -/
def mean (X : SX.Idx → EReal) (H : SH.Idx → EReal) : SX.Idx → EReal :=
  fun i => msg X H (i 0) (i 1) * recip (deg H (i 0))

/-! ## Sums by blocks -/

/-- A sum over the first `K · B` naturals is the sum over `K` consecutive blocks of `B`. -/
theorem sum_range_blocks {M : Type*} [AddCommMonoid M] (g : ℕ → M) (B : ℕ) :
    ∀ K : ℕ, ∑ r ∈ Finset.range (K * B), g r = ∑ k ∈ Finset.range K, ∑ n : Fin B, g (B * k + n.val)
  | 0 => by simp
  | K + 1 => by
    rw [Nat.succ_mul, Finset.sum_range_add, Finset.sum_range_succ, sum_range_blocks g B K]
    congr 1
    rw [Finset.sum_range, Nat.mul_comm K B]

/-- So a sum over `Fin (K · B)` is that double sum. -/
theorem sum_fin_blocks {M : Type*} [AddCommMonoid M] (g : ℕ → M) (K B : ℕ) :
    ∑ r : Fin (K * B), g r.val = ∑ k ∈ Finset.range K, ∑ n : Fin B, g (B * k + n.val) := by
  rw [← sum_range_blocks g B K, Finset.sum_range]

end Cert.Spec

end
-- ==== Proof.Arith.lean ====
/-
  The arithmetic of one grid step, entry by entry, over the extended reals.

  With `h : [1024, 2048]` the loaded block of the incidence array, `x : [1024, 128]` the loaded block of the
  features and `a` an accumulator block `[2048, 128]`, at row `p` and lane `q`:
    the message update is   a[p, q] + ∑ₙ h[n, p] · x[n, q]   (the block product contracts the vertex axis of both),
    the degree update is    a[p, q] + ∑ₙ h[n, p]             (the same product against a block of ones),
    the output is           msg[p, q] · r(deg[p, q])         with `r` the guarded reciprocal of the specification.
  Narrowing to bf16 before the products is the identity on extended reals, and the bf16 word of `1.0` denotes `1`.
-/
import proofs.«140889_j40303973106022_1_alg».proof.Proof.Gen.KernelIdeal.Skeleton
import proofs.«140889_j40303973106022_1_alg».proof.Proof.Spec
import Idealize.ShloMosaic.Lib.Pipeline.Value
import Idealize.ShloMosaic.Lib.ValueIdx
import Idealize.ShloMosaic.PureOps.Ideal.Laws

noncomputable section

namespace Cert.KernelIdeal.Arith

open Cert.KernelIdeal Cert.KernelIdeal.Gen Idealize.ShloMosaic Idealize.ShloMosaic.ValueIdx
open scoped BigOperators

/-- The bf16 word `0x3F80` denotes the number one. -/
theorem one_bf16 : Ideal.ofBits .bf16 0x3F80#16 = 1 := by
  simp [Ideal.ofBits, Ideal.ieee, -EReal.coe_mul]
  norm_num

/-! ## The block product's operand indices: both operands are contracted along their vertex axis -/

theorem lhs_vertex (j : S2048x128.Idx) (k : dot_S1024x2048_S1024x128_S2048x128_0_0_1_1_n_n.contr.Idx) :
    (dot_S1024x2048_S1024x128_S2048x128_0_0_1_1_n_n.lhsIdx j k 0).val = (k ⟨0, by decide⟩).val :=
  dot_S1024x2048_S1024x128_S2048x128_0_0_1_1_n_n.lhsIdx_val_of_single rfl j k

theorem lhs_edge (j : S2048x128.Idx) (k : dot_S1024x2048_S1024x128_S2048x128_0_0_1_1_n_n.contr.Idx) :
    (dot_S1024x2048_S1024x128_S2048x128_0_0_1_1_n_n.lhsIdx j k 1).val = (j 0).val := by
  unfold DotDims.lhsIdx
  rw [dif_neg (show ¬(1 : Fin S1024x2048.rank) ∈ dot_S1024x2048_S1024x128_S2048x128_0_0_1_1_n_n.lhsBatch by decide), dif_pos (show (1 : Fin S1024x2048.rank) ∈ dot_S1024x2048_S1024x128_S2048x128_0_0_1_1_n_n.lhsNonContracting by decide)]
  rfl

theorem rhs_vertex (j : S2048x128.Idx) (k : dot_S1024x2048_S1024x128_S2048x128_0_0_1_1_n_n.contr.Idx) :
    (dot_S1024x2048_S1024x128_S2048x128_0_0_1_1_n_n.rhsIdx j k 0).val = (k ⟨0, by decide⟩).val :=
  dot_S1024x2048_S1024x128_S2048x128_0_0_1_1_n_n.rhsIdx_val_of_single rfl j k

theorem rhs_lane (j : S2048x128.Idx) (k : dot_S1024x2048_S1024x128_S2048x128_0_0_1_1_n_n.contr.Idx) :
    (dot_S1024x2048_S1024x128_S2048x128_0_0_1_1_n_n.rhsIdx j k 1).val = (j 1).val := by
  unfold DotDims.rhsIdx
  rw [dif_neg (show ¬(1 : Fin S1024x128.rank) ∈ dot_S1024x2048_S1024x128_S2048x128_0_0_1_1_n_n.rhsBatch by decide), dif_pos (show (1 : Fin S1024x128.rank) ∈ dot_S1024x2048_S1024x128_S2048x128_0_0_1_1_n_n.rhsNonContracting by decide)]
  rfl

/-- The block product into a zero accumulator, at row `p` and lane `q`: the sum over the block's 1024 vertices. -/
theorem product_apply (l : FVec Ideal S1024x2048 .bf16) (r : FVec Ideal S1024x128 .bf16) (p : Fin 2048) (q : Fin 128) :
    matmul dot_S1024x2048_S1024x128_S2048x128_0_0_1_1_n_n none l r (constant S2048x128 .f32 0x00000000#32) (ix2 p q)
      = ∑ n : Fin 1024, l (ix2 n p) * r (ix2 n q) := by
  simp only [matmul]
  rw [Ideal.matmul_constant_zero_apply, ← Equiv.sum_comp (contrEquiv1 dot_S1024x2048_S1024x128_S2048x128_0_0_1_1_n_n 1024 rfl rfl).symm]
  refine Finset.sum_congr rfl fun n _ => ?_
  have hn := contrEquiv1_symm_val dot_S1024x2048_S1024x128_S2048x128_0_0_1_1_n_n 1024 rfl rfl n
  have el : dot_S1024x2048_S1024x128_S2048x128_0_0_1_1_n_n.lhsIdx (ix2 p q) ((contrEquiv1 dot_S1024x2048_S1024x128_S2048x128_0_0_1_1_n_n 1024 rfl rfl).symm n) = ix2 n p := funext fun a => Fin.ext (by
    match a with
    | ⟨0, _⟩ => exact (lhs_vertex _ _).trans hn
    | ⟨1, _⟩ => exact lhs_edge _ _)
  have er : dot_S1024x2048_S1024x128_S2048x128_0_0_1_1_n_n.rhsIdx (ix2 p q) ((contrEquiv1 dot_S1024x2048_S1024x128_S2048x128_0_0_1_1_n_n 1024 rfl rfl).symm n) = ix2 n q := funext fun a => Fin.ext (by
    match a with
    | ⟨0, _⟩ => exact (rhs_vertex _ _).trans hn
    | ⟨1, _⟩ => exact rhs_lane _ _)
  rw [el, er]

/-! ## The stored values at an entry -/

/-- The block the first step stores into the message accumulator is zero, -/
theorem zero_msg_apply (j : S2048x128.Idx) : k0_pay1 (F := Ideal) j = 0 := by
  unfold k0_pay1
  rw [shapeCast_self]
  exact Ideal.ofBits_zero_f32

/-- and so is the one it stores into the degree accumulator. -/
theorem zero_deg_apply (j : S2048x128.Idx) : k0_pay2 (F := Ideal) j = 0 := by
  unfold k0_pay2
  rw [shapeCast_self]
  exact Ideal.ofBits_zero_f32

/-- The message update. -/
theorem msg_update_apply (h : Vec Ideal S1024x2048 .f32) (x : Vec Ideal S1024x128 .f32) (a : Vec Ideal S2048x128 .f32)
    (p : Fin 2048) (q : Fin 128) :
    k0_pay4 h x a (ix2 p q) = a (ix2 p q) + ∑ n : Fin 1024, h (ix2 n p) * x (ix2 n q) := by
  unfold k0_pay4 k0_pay3
  rw [shapeCast_self, addf_apply, product_apply]
  rfl

/-- The degree update. -/
theorem deg_update_apply (h : Vec Ideal S1024x2048 .f32) (a : Vec Ideal S2048x128 .f32) (p : Fin 2048) (q : Fin 128) :
    k0_pay5 h a (ix2 p q) = a (ix2 p q) + ∑ n : Fin 1024, h (ix2 n p) := by
  unfold k0_pay5 k0_pay3
  rw [shapeCast_self, addf_apply, product_apply]
  refine congrArg (a (ix2 p q) + ·) (Finset.sum_congr rfl fun n _ => ?_)
  show h (ix2 n p) * Ideal.ofBits .bf16 0x3F80#16 = h (ix2 n p)
  rw [one_bf16, mul_one]

/-- The output: the message scaled by the guarded reciprocal of the degree. -/
theorem output_apply (dg ms : Vec Ideal S2048x128 .f32) (j : S2048x128.Idx) :
    k0_pay6 dg ms j = ms j * Cert.Spec.recip (dg j) := rfl

end Cert.KernelIdeal.Arith

end
-- ==== Proof.Partial.lean ====
/-
  The running sums the grid accumulates, and that the last of them are the column sums of the specification.

  The vertex axis (8192) is cut into 8 consecutive blocks of 1024. After the first `K` blocks the message accumulator
  of hyperedge `e`, feature `d` holds `∑_{k < K} ∑_{n < 1024} H[1024 k + n, e] · X[1024 k + n, d]` and the degree
  accumulator `∑_{k < K} ∑_{n < 1024} H[1024 k + n, e]`; at `K = 8` these are the sums over all vertices, by
  regrouping a finite sum into consecutive blocks (associativity and commutativity of addition alone: nothing is
  cancelled or distributed, so the infinities need no care). Arrays are read at natural-number coordinates here
  (zero outside the array), which keeps the arithmetic of block offsets free of bound proofs.
-/
import proofs.«140889_j40303973106022_1_alg».proof.Proof.Spec

noncomputable section

namespace Cert.Spec

open Idealize.ShloMosaic Idealize.ShloMosaic.ValueIdx
open scoped BigOperators

/-- The incidence array at natural coordinates. -/
def Hat (H : SH.Idx → EReal) (r e : ℕ) : EReal :=
  if h : r < 8192 ∧ e < 8192 then H (ix2 ⟨r, h.1⟩ ⟨e, h.2⟩) else 0

/-- The feature array at natural coordinates. -/
def Xat (X : SX.Idx → EReal) (r d : ℕ) : EReal :=
  if h : r < 8192 ∧ d < 128 then X (ix2 ⟨r, h.1⟩ ⟨d, h.2⟩) else 0

/-- Vertex block `k`'s contribution to the message of hyperedge `e`, feature `d`. -/
def msgPart (X : SX.Idx → EReal) (H : SH.Idx → EReal) (k e d : ℕ) : EReal :=
  ∑ n : Fin 1024, Hat H (1024 * k + n.val) e * Xat X (1024 * k + n.val) d

/-- Vertex block `k`'s contribution to the degree of hyperedge `e`. -/
def degPart (H : SH.Idx → EReal) (k e : ℕ) : EReal :=
  ∑ n : Fin 1024, Hat H (1024 * k + n.val) e

/-- The message accumulated over the first `K` vertex blocks. -/
def msgUpTo (X : SX.Idx → EReal) (H : SH.Idx → EReal) (K e d : ℕ) : EReal :=
  ∑ k ∈ Finset.range K, msgPart X H k e d

/-- The degree accumulated over the first `K` vertex blocks. -/
def degUpTo (H : SH.Idx → EReal) (K e : ℕ) : EReal :=
  ∑ k ∈ Finset.range K, degPart H k e

theorem msgUpTo_zero (X : SX.Idx → EReal) (H : SH.Idx → EReal) (e d : ℕ) : msgUpTo X H 0 e d = 0 :=
  Finset.sum_range_zero _

theorem degUpTo_zero (H : SH.Idx → EReal) (e : ℕ) : degUpTo H 0 e = 0 :=
  Finset.sum_range_zero _

theorem msgUpTo_succ (X : SX.Idx → EReal) (H : SH.Idx → EReal) (K e d : ℕ) :
    msgUpTo X H (K + 1) e d = msgUpTo X H K e d + msgPart X H K e d :=
  Finset.sum_range_succ _ _

theorem degUpTo_succ (H : SH.Idx → EReal) (K e : ℕ) :
    degUpTo H (K + 1) e = degUpTo H K e + degPart H K e :=
  Finset.sum_range_succ _ _

/-- All eight blocks: the message of the specification. -/
theorem msgUpTo_all (X : SX.Idx → EReal) (H : SH.Idx → EReal) (e : Fin 8192) (d : Fin 128) :
    msgUpTo X H 8 e.val d.val = msg X H e d :=
  (sum_fin_blocks (fun r => Hat H r e.val * Xat X r d.val) 8 1024).symm.trans
    (Finset.sum_congr rfl fun r _ => by
      have hr : r.val < 8192 := r.isLt
      unfold Hat Xat
      rw [dif_pos ⟨hr, e.isLt⟩, dif_pos ⟨hr, d.isLt⟩])

/-- All eight blocks: the degree of the specification. -/
theorem degUpTo_all (H : SH.Idx → EReal) (e : Fin 8192) : degUpTo H 8 e.val = deg H e :=
  (sum_fin_blocks (fun r => Hat H r e.val) 8 1024).symm.trans
    (Finset.sum_congr rfl fun r _ => by
      have hr : r.val < 8192 := r.isLt
      unfold Hat
      rw [dif_pos ⟨hr, e.isLt⟩])

end Cert.Spec

end
-- ==== Proof.Update.lean ====
/-
  One grid step in terms of the running sums: if the loaded blocks are vertex block `k` of the arrays (the incidence
  block at hyperedge offset `e₀`) and the accumulators hold the sums over the first `k` vertex blocks, then after
  the step they hold the sums over the first `k + 1`; and once all eight blocks are in, the stored output block is
  the specification's result on the 2048 hyperedges from `e₀` on.
-/
import proofs.«140889_j40303973106022_1_alg».proof.Proof.Arith
import proofs.«140889_j40303973106022_1_alg».proof.Proof.Partial

noncomputable section

namespace Cert.KernelIdeal.Arith

open Cert.KernelIdeal Cert.KernelIdeal.Gen Cert.Spec Idealize.ShloMosaic Idealize.ShloMosaic.ValueIdx
open scoped BigOperators

variable (X : SX.Idx → EReal) (H : SH.Idx → EReal)

/-- The message accumulator after a step. -/
theorem msg_step (k e₀ : ℕ) (h : Vec Ideal S1024x2048 .f32) (x : Vec Ideal S1024x128 .f32) (a : Vec Ideal S2048x128 .f32)
    (hh : ∀ (n : Fin 1024) (p : Fin 2048), h (ix2 n p) = Hat H (1024 * k + n.val) (e₀ + p.val))
    (hx : ∀ (n : Fin 1024) (q : Fin 128), x (ix2 n q) = Xat X (1024 * k + n.val) q.val)
    (ha : ∀ (p : Fin 2048) (q : Fin 128), a (ix2 p q) = msgUpTo X H k (e₀ + p.val) q.val)
    (p : Fin 2048) (q : Fin 128) :
    k0_pay4 h x a (ix2 p q) = msgUpTo X H (k + 1) (e₀ + p.val) q.val := by
  rw [msg_update_apply, ha, msgUpTo_succ]
  refine congrArg (msgUpTo X H k (e₀ + p.val) q.val + ·) (Finset.sum_congr rfl fun n _ => ?_)
  rw [hh, hx]

/-- The degree accumulator after a step. -/
theorem deg_step (k e₀ : ℕ) (h : Vec Ideal S1024x2048 .f32) (a : Vec Ideal S2048x128 .f32)
    (hh : ∀ (n : Fin 1024) (p : Fin 2048), h (ix2 n p) = Hat H (1024 * k + n.val) (e₀ + p.val))
    (ha : ∀ (p : Fin 2048) (q : Fin 128), a (ix2 p q) = degUpTo H k (e₀ + p.val))
    (p : Fin 2048) (q : Fin 128) :
    k0_pay5 h a (ix2 p q) = degUpTo H (k + 1) (e₀ + p.val) := by
  rw [deg_update_apply, ha, degUpTo_succ]
  refine congrArg (degUpTo H k (e₀ + p.val) + ·) (Finset.sum_congr rfl fun n _ => ?_)
  rw [hh]

/-- The zero blocks are the sums over no vertex block. -/
theorem zero_msg_is_sum (e₀ : ℕ) (p : Fin 2048) (q : Fin 128) :
    k0_pay1 (F := Ideal) (ix2 p q) = msgUpTo X H 0 (e₀ + p.val) q.val := by
  rw [zero_msg_apply, msgUpTo_zero]

theorem zero_deg_is_sum (e₀ : ℕ) (p : Fin 2048) (q : Fin 128) :
    k0_pay2 (F := Ideal) (ix2 p q) = degUpTo H 0 (e₀ + p.val) := by
  rw [zero_deg_apply, degUpTo_zero]

/-- The output block once all eight vertex blocks are accumulated: the specification's result. -/
theorem output_is_mean (e₀ : ℕ) (dg ms : Vec Ideal S2048x128 .f32)
    (hdg : ∀ (p : Fin 2048) (q : Fin 128), dg (ix2 p q) = degUpTo H 8 (e₀ + p.val))
    (hms : ∀ (p : Fin 2048) (q : Fin 128), ms (ix2 p q) = msgUpTo X H 8 (e₀ + p.val) q.val)
    (p : Fin 2048) (q : Fin 128) (he : e₀ + p.val < 8192) :
    k0_pay6 dg ms (ix2 p q) = mean X H (ix2 ⟨e₀ + p.val, he⟩ q) := by
  rw [output_apply, hdg, hms]
  exact congrArg₂ (· * ·) (msgUpTo_all X H ⟨e₀ + p.val, he⟩ q) (congrArg recip (degUpTo_all H ⟨e₀ + p.val, he⟩))

end Cert.KernelIdeal.Arith

end
-- ==== Proof.Grid.lean ====
/-
  The whole run of the grid: the accumulators after every step are the running sums, and the result array is the
  specification's.

  Step `t` of the 32 (row-major over 4 x 8) works on hyperedge block `t / 8` and vertex block `t % 8`: it loads
  rows `1024·(t % 8) …` of both arrays, of the incidence array the columns `2048·(t / 8) …`. By induction on `t`
  the message and degree accumulators after step `t` hold the sums over the vertex blocks `0 … t % 8` for the
  hyperedges of block `t / 8` (a row of the grid starts from zero, later steps add to what the step before left).
  The output block is written back only after the last step of a row, where all eight vertex blocks are in: it is
  the specification's result on that block of hyperedges, and the four blocks tile the result array.
-/
import proofs.«140889_j40303973106022_1_alg».proof.Proof.Gen.KernelIdeal.Value
import proofs.«140889_j40303973106022_1_alg».proof.Proof.Step
import proofs.«140889_j40303973106022_1_alg».proof.Proof.Update

set_option maxRecDepth 16384

noncomputable section

namespace Cert.KernelIdeal.Grid

open Cert.KernelIdeal Cert.KernelIdeal.Gen Cert.KernelIdeal.Step Cert.KernelIdeal.Arith Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The feature array as launched. -/
abbrev feat (c : Dev nD) : SX.Idx → EReal := m ((c : Thread nD τ).loc main_arg0)
/-- The incidence array as launched. -/
abbrev inc (c : Dev nD) : SH.Idx → EReal := m ((c : Thread nD τ).loc main_arg1)

/-! ## Which blocks a step works on -/

/-- Step `t` reads vertex block `t % 8` of both arrays, hyperedge block `t / 8` of the incidence array, and writes
    hyperedge block `t / 8` of the result. -/
theorem block_of_step : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The loaded incidence block, entry by entry. -/
theorem inc_block (c : Dev nD) (t : Fin cfg0.N) (n : Fin 1024) (p : Fin 2048) :
    (iblk m c 0 t : Vec Ideal S1024x2048 .f32) (ix2 n p)
      = Hat (inc m c) (1024 * (t.val % 8) + n.val) (2048 * (t.val / 8) + p.val) := by
  obtain ⟨e0, e1, -, -, -, -⟩ := block_of_step t
  have hN : t.val < 32 := lt_of_lt_of_eq t.isLt (show cfg0.N = 32 from N_0)
  have hn := n.isLt
  have hp := p.isLt
  unfold iblk Hat
  rw [View.read_apply, dif_pos ⟨by omega, by omega⟩]
  show V m c main_arg1 _ = m ((c : Thread nD τ).loc main_arg1) _
  unfold V
  congr 1
  funext a
  apply Fin.ext
  match a with
  | ⟨0, _⟩ => show win0_0.index t (0 : Fin 2) * 1024 + 1 * n.val = 1024 * (t.val % 8) + n.val; rw [e0]; omega
  | ⟨1, _⟩ => show win0_0.index t (1 : Fin 2) * 2048 + 1 * p.val = 2048 * (t.val / 8) + p.val; rw [e1]; omega

/-- The loaded feature block, entry by entry. -/
theorem feat_block (c : Dev nD) (t : Fin cfg0.N) (n : Fin 1024) (q : Fin 128) :
    (iblk m c 1 t : Vec Ideal S1024x128 .f32) (ix2 n q)
      = Xat (feat m c) (1024 * (t.val % 8) + n.val) q.val := by
  obtain ⟨-, -, e2, e3, -, -⟩ := block_of_step t
  have hN : t.val < 32 := lt_of_lt_of_eq t.isLt (show cfg0.N = 32 from N_0)
  have hn := n.isLt
  have hq := q.isLt
  unfold iblk Xat
  rw [View.read_apply, dif_pos ⟨by omega, by omega⟩]
  show V m c main_arg0 _ = m ((c : Thread nD τ).loc main_arg0) _
  unfold V
  congr 1
  funext a
  apply Fin.ext
  match a with
  | ⟨0, _⟩ => show win0_1.index t (0 : Fin 2) * 1024 + 1 * n.val = 1024 * (t.val % 8) + n.val; rw [e2]; omega
  | ⟨1, _⟩ => show win0_1.index t (1 : Fin 2) * 128 + 1 * q.val = q.val; rw [e3]; omega

/-! ## The accumulators after every step -/

/-- After step `n` the accumulators hold the running sums over the vertex blocks `0 … n % 8`, for the hyperedges of
    block `n / 8`. -/
def Sums (c : Dev nD) (n : ℕ) (hn : n < cfg0.N) : Prop :=
  (∀ (p : Fin 2048) (q : Fin 128), (outsAt0 m c n hn).2.1 (ix2 p q)
      = msgUpTo (feat m c) (inc m c) (n % 8 + 1) (2048 * (n / 8) + p.val) q.val)
  ∧ (∀ (p : Fin 2048) (q : Fin 128), (outsAt0 m c n hn).2.2 (ix2 p q)
      = degUpTo (inc m c) (n % 8 + 1) (2048 * (n / 8) + p.val))

/-- What a step that is not the first of its row finds in the accumulators. -/
theorem found (c : Dev nD) (t : Fin cfg0.N) (h0 : ¬t.val % 8 = 0)
    (ih : Sums m c (t.val - 1) (Nat.lt_of_le_of_lt (Nat.sub_le _ _) t.isLt)) :
    (∀ (p : Fin 2048) (q : Fin 128), (outsAt0 m c (t.val - 1) (Nat.lt_of_le_of_lt (Nat.sub_le _ _) t.isLt)).2.1 (ix2 p q)
        = msgUpTo (feat m c) (inc m c) (t.val % 8) (2048 * (t.val / 8) + p.val) q.val)
    ∧ (∀ (p : Fin 2048) (q : Fin 128), (outsAt0 m c (t.val - 1) (Nat.lt_of_le_of_lt (Nat.sub_le _ _) t.isLt)).2.2 (ix2 p q)
        = degUpTo (inc m c) (t.val % 8) (2048 * (t.val / 8) + p.val)) := by
  have hk : (t.val - 1) % 8 + 1 = t.val % 8 := by omega
  have hd : (t.val - 1) / 8 = t.val / 8 := by omega
  unfold Sums at ih
  rw [hk, hd] at ih
  exact ih

/-- One step of the induction. -/
theorem sums_step (c : Dev nD) (t : Fin cfg0.N)
    (ih : ¬t.val % 8 = 0 → Sums m c (t.val - 1) (Nat.lt_of_le_of_lt (Nat.sub_le _ _) t.isLt)) :
    Sums m c t.val t.isLt := by
  have hN : t.val < 32 := lt_of_lt_of_eq t.isLt (show cfg0.N = 32 from N_0)
  unfold Sums
  by_cases h0 : t.val % 8 = 0
  · have h1 : ¬t.val % 8 = 7 := by omega
    rw [outsAt0_A m c t h0 h1]
    dsimp only
    constructor
    · intro p q
      refine (congrFun (scratch0_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) (ix2 p q)).trans ?_
      rw [h0]
      exact msg_step (feat m c) (inc m c) 0 (2048 * (t.val / 8)) (iblk m c 0 t) (iblk m c 1 t) (k0_pay1 (F := Ideal))
        (fun n p => by rw [inc_block m c t n p, h0]) (fun n q => by rw [feat_block m c t n q, h0])
        (zero_msg_is_sum (feat m c) (inc m c) (2048 * (t.val / 8))) p q
    · intro p q
      refine (congrFun (scratch1_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) (ix2 p q)).trans ?_
      rw [h0]
      exact deg_step (inc m c) 0 (2048 * (t.val / 8)) (iblk m c 0 t) (k0_pay2 (F := Ideal))
        (fun n p => by rw [inc_block m c t n p, h0]) (zero_deg_is_sum (inc m c) (2048 * (t.val / 8))) p q
  · obtain ⟨f0, f1⟩ := found m c t h0 (ih h0)
    by_cases h1 : t.val % 8 = 7
    · rw [outsAt0_C m c t h0 h1]
      dsimp only
      constructor
      · intro p q
        refine (congrFun (scratch0_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        exact msg_step (feat m c) (inc m c) (t.val % 8) (2048 * (t.val / 8)) (iblk m c 0 t) (iblk m c 1 t) (outsAt0 m c (t.val - 1) (Nat.lt_of_le_of_lt (Nat.sub_le _ _) t.isLt)).2.1
          (inc_block m c t) (feat_block m c t) f0 p q
      · intro p q
        refine (congrFun (scratch1_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        exact deg_step (inc m c) (t.val % 8) (2048 * (t.val / 8)) (iblk m c 0 t) (outsAt0 m c (t.val - 1) (Nat.lt_of_le_of_lt (Nat.sub_le _ _) t.isLt)).2.2
          (inc_block m c t) f1 p q
    · rw [outsAt0_B m c t h0 h1]
      dsimp only
      constructor
      · intro p q
        refine (congrFun (scratch0_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        exact msg_step (feat m c) (inc m c) (t.val % 8) (2048 * (t.val / 8)) (iblk m c 0 t) (iblk m c 1 t) (outsAt0 m c (t.val - 1) (Nat.lt_of_le_of_lt (Nat.sub_le _ _) t.isLt)).2.1
          (inc_block m c t) (feat_block m c t) f0 p q
      · intro p q
        refine (congrFun (scratch1_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
        exact deg_step (inc m c) (t.val % 8) (2048 * (t.val / 8)) (iblk m c 0 t) (outsAt0 m c (t.val - 1) (Nat.lt_of_le_of_lt (Nat.sub_le _ _) t.isLt)).2.2
          (inc_block m c t) f1 p q

/-- So the accumulators hold the running sums after every step, by induction on the step. -/
theorem sums (c : Dev nD) : ∀ (n : ℕ) (hn : n < cfg0.N), Sums m c n hn
  | 0, hn => sums_step m c ⟨0, hn⟩ (fun h => absurd rfl h)
  | n + 1, hn => sums_step m c ⟨n + 1, hn⟩ (fun _ => sums c n (Nat.lt_of_succ_lt hn))

/-! ## The result array -/

/-- What the last step of a row writes back is its block of the specification's result. -/
theorem flushed_eq (c : Dev nD) (t : Fin cfg0.N) (hf : (cfg0.win 2).flush t = true) :
    (dats m 0 c).flushed 2 t = ((cfg0.win 2).blk t).view.read (Elt Ideal) (mean (feat m c) (inc m c)) := by
  have hN : t.val < 32 := lt_of_lt_of_eq t.isLt (show cfg0.N = 32 from N_0)
  have h1 : t.val % 8 = 7 := (flush0_2 t).mp hf
  have h0 : ¬t.val % 8 = 0 := by omega
  obtain ⟨-, -, -, -, e4, e5⟩ := block_of_step t
  obtain ⟨f0, f1⟩ := found m c t h0 (sums m c (t.val - 1) (Nat.lt_of_le_of_lt (Nat.sub_le _ _) t.isLt))
  rw [Cert.KernelIdeal.Value.flushed2_C m c t h0 h1,
    out_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
  funext j
  obtain ⟨p, q, rfl⟩ : ∃ (p : Fin 2048) (q : Fin 128), j = ix2 p q := ⟨j 0, j 1, eq_ix2 j⟩
  have hp := p.isLt
  have he : 2048 * (t.val / 8) + p.val < 8192 := by omega
  refine (output_is_mean (feat m c) (inc m c) (2048 * (t.val / 8))
    (k0_pay5 (iblk m c 0 t) (outsAt0 m c (t.val - 1) (Nat.lt_of_le_of_lt (Nat.sub_le _ _) t.isLt)).2.2) (k0_pay4 (iblk m c 0 t) (iblk m c 1 t) (outsAt0 m c (t.val - 1) (Nat.lt_of_le_of_lt (Nat.sub_le _ _) t.isLt)).2.1)
    (fun p q => by
      have e := deg_step (inc m c) (t.val % 8) (2048 * (t.val / 8)) (iblk m c 0 t) (outsAt0 m c (t.val - 1) (Nat.lt_of_le_of_lt (Nat.sub_le _ _) t.isLt)).2.2 (inc_block m c t) f1 p q
      rw [h1] at e
      exact e)
    (fun p q => by
      have e := msg_step (feat m c) (inc m c) (t.val % 8) (2048 * (t.val / 8)) (iblk m c 0 t) (iblk m c 1 t) (outsAt0 m c (t.val - 1) (Nat.lt_of_le_of_lt (Nat.sub_le _ _) t.isLt)).2.1
        (inc_block m c t) (feat_block m c t) f0 p q
      rw [h1] at e
      exact e)
    p q he).trans ?_
  show mean (feat m c) (inc m c) _ = mean (feat m c) (inc m c) (((cfg0.win 2).blk t).view.emb (ix2 p q))
  congr 1
  funext a
  apply Fin.ext
  match a with
  | ⟨0, _⟩ => show 2048 * (t.val / 8) + p.val = win0_2.index t (0 : Fin 2) * 2048 + 1 * p.val; rw [e4]; omega
  | ⟨1, _⟩ => show q.val = win0_2.index t (1 : Fin 2) * 128 + 1 * q.val; rw [e5]; omega

/-- An index of the result array is in step `t`'s block iff each coordinate is in the block's range on its axis. -/
theorem mem_block (t : Fin cfg0.N) (i : S8192x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v0).slice (win0_2.rect t)).set ↔ _
  rw [View.set_slice_whole, Rect.mem_set_unit]
  exact Iff.rfl

/-- The four written blocks tile the result array: hyperedge `e` is in the block written after step `8·(e / 2048) + 7`. -/
theorem covered (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 32 := N_0
  have hb : 8 * ((i 0).val / 2048) + 7 < cfg0.N := by omega
  obtain ⟨-, -, -, -, e4, e5⟩ := block_of_step ⟨8 * ((i 0).val / 2048) + 7, hb⟩
  have e4' : win0_2.index ⟨8 * ((i 0).val / 2048) + 7, hb⟩ (0 : Fin 2) = (8 * ((i 0).val / 2048) + 7) / 8 := e4
  refine ⟨⟨8 * ((i 0).val / 2048) + 7, hb⟩, (flush0_2 _).mpr (by show (8 * ((i 0).val / 2048) + 7) % 8 = 7; omega), ?_⟩
  rw [mem_block]
  intro a
  match a with
  | ⟨0, _⟩ =>
    show win0_2.index ⟨8 * ((i 0).val / 2048) + 7, hb⟩ (0 : Fin 2) * 2048 ≤ (i 0).val ∧ (i 0).val < win0_2.index ⟨8 * ((i 0).val / 2048) + 7, hb⟩ (0 : Fin 2) * 2048 + 2048
    rw [e4']; omega
  | ⟨1, _⟩ =>
    show win0_2.index ⟨8 * ((i 0).val / 2048) + 7, hb⟩ (1 : Fin 2) * 128 ≤ (i 1).val ∧ (i 1).val < win0_2.index ⟨8 * ((i 0).val / 2048) + 7, hb⟩ (1 : Fin 2) * 128 + 128
    rw [e5]; omega

/-- So the result array ends holding the specification's result. -/
theorem final (c : Dev nD) : (dats m 0 c).arrAt 2 cfg0.N = mean (feat m c) (inc m c) :=
  (dats m 0 c).arrAt_eq_of_cover 2 (mean (feat m c) (inc m c)) (flushed_eq m c) covered

/-- The run, read: the result array at the specification's result of the argument arrays, the arguments unchanged. -/
theorem run : θ_run defs (onTc (τ := τ) (main (F := Ideal))) ⟨m, fun _ => 0, ρ⟩ fun r => ∀ c : Dev nD,
      r.2.mem ((c : Thread nD τ).loc main_v0) = mean (feat m c) (inc m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Grid

end
-- ==== Proof.Reference.lean ====
/-
  The reference computes the specification's result: entry `(e, d)` of its last value is the product of
  `∑ₙ H[n, e] · X[n, d]` (the transposed incidence array times the features, contracted over the vertices) with the
  guarded reciprocal of `0 + ∑ₙ H[n, e]` (the column sum from a zero initial value), broadcast along the feature axis.
-/
import proofs.«140889_j40303973106022_1_alg».proof.Proof.Gen.ReferenceIdeal.Read
import proofs.«140889_j40303973106022_1_alg».proof.Proof.Spec

noncomputable section

namespace Cert.ReferenceIdeal.Meaning

open Cert.ReferenceIdeal Cert.ReferenceIdeal.Read Cert.Spec Idealize.ShloMosaic Idealize.ShloMosaic.ValueIdx
open scoped BigOperators

/-- Row `k` of the transposed incidence array's column `e` is entry `(k, e)` of the incidence array. -/
theorem inc_index (i : S8192x128.Idx) (k : Fin 8192) : idx_main_v0 (lidx_main_v1 i k) = ix2 k (i 0) :=
  funext fun a => Fin.ext (by match a with | ⟨0, _⟩ => rfl | ⟨1, _⟩ => rfl)

theorem feat_index (i : S8192x128.Idx) (k : Fin 8192) : ridx_main_v1 i k = ix2 k (i 1) :=
  funext fun a => Fin.ext (by match a with | ⟨0, _⟩ => rfl | ⟨1, _⟩ => rfl)

/-- The degree is read at the hyperedge of the result's row. -/
theorem deg_index (i : S8192x128.Idx) (k : Fin 8192) : idx_main_v2 (idx_main_v7 (idx_main_v8 i)) k = ix2 k (i 0) :=
  funext fun a => Fin.ext (by match a with | ⟨0, _⟩ => rfl | ⟨1, _⟩ => rfl)

/-- The reference's result is the specification's, entry by entry. -/
theorem result_is_mean (x0 : (⟨S8192x128, .f32⟩ : BufTy).Contents (Elt Ideal)) (x1 : (⟨S8192x8192, .f32⟩ : BufTy).Contents (Elt Ideal)) :
    val_main_v9 (F := Ideal) x0 x1 = mean x0 x1 := by
  funext i
  rw [val_main_v9_apply, val_main_v1_apply, val_main_v8_apply, val_main_v7_apply, val_main_v6_apply, val_main_v5_apply,
    val_main_call0_v0_apply, val_main_call0_v1_apply, val_main_call0_cst_apply, val_main_call1_v1_apply,
    val_main_call1_v0_apply, val_main_cst_1_apply, val_main_v4_apply, val_main_v3_apply, val_main_cst_0_apply,
    val_main_v2_apply, val_main_cst_apply]
  simp only [val_main_v0_apply, inc_index, feat_index, deg_index]
  have hz : ∀ s : EReal, FloatOps.ofBits (F := Ideal) .f32 0x00000000#32 + s = s := fun s => by
    rw [Ideal.ofBits_def, Ideal.ofBits_zero_f32, zero_add]
  rw [hz]
  rfl

end Cert.ReferenceIdeal.Meaning

end
-- ==== Proof.lean ====
/-
  Mean aggregation of vertex features onto hyperedges: the tiled accumulating kernel and the plain matrix formula
  compute the same function over the extended reals.

  Both programs produce, at hyperedge `e` and feature `d`, `(∑ₙ H[n, e] · X[n, d]) · r(∑ₙ H[n, e])` with
  `r(s) = 0` where `|1 / s| = +∞` and `1 / s` elsewhere (Proof/Spec.lean). The reference computes exactly this
  (Proof/Reference.lean). The kernel walks a 4 x 8 grid, hyperedge blocks by vertex blocks, keeping the two sums in
  accumulators that start from zero at the head of each row and grow by one vertex block per step (Proof/Step.lean,
  Proof/Arith.lean, Proof/Update.lean); after the eighth step the accumulators hold the sums over all vertices —
  a finite sum regrouped into consecutive blocks, Proof/Partial.lean — and the scaled block is written out; the four
  blocks tile the result (Proof/Grid.lean). Only associativity and commutativity of addition are used, so the
  finiteness of the inputs is never needed. The kernel narrows its operands to bf16 before multiplying, which over
  the extended reals is the identity, so nothing is owed for the idealization.
-/
import proofs.«140889_j40303973106022_1_alg».proof.Defs
import proofs.«140889_j40303973106022_1_alg».proof.Proof.Gen.Kernel
import proofs.«140889_j40303973106022_1_alg».proof.Proof.Gen.Kernel.Skeleton
import proofs.«140889_j40303973106022_1_alg».proof.Proof.Gen.Kernel.Launch
import proofs.«140889_j40303973106022_1_alg».proof.Proof.Gen.Kernel.Points
import proofs.«140889_j40303973106022_1_alg».proof.Proof.Gen.Kernel.Frame
import proofs.«140889_j40303973106022_1_alg».proof.Proof.Gen.KernelIdeal
import proofs.«140889_j40303973106022_1_alg».proof.Proof.Gen.KernelIdeal.Skeleton
import proofs.«140889_j40303973106022_1_alg».proof.Proof.Gen.KernelIdeal.Launch
import proofs.«140889_j40303973106022_1_alg».proof.Proof.Gen.KernelIdeal.Points
import proofs.«140889_j40303973106022_1_alg».proof.Proof.Gen.KernelIdeal.Frame
import proofs.«140889_j40303973106022_1_alg».proof.Proof.Gen.ReferenceIdeal
import proofs.«140889_j40303973106022_1_alg».proof.Proof.Gen.Pre_finite_inputs
import proofs.«140889_j40303973106022_1_alg».proof.Proof.Gen.KernelIdeal.Value
import proofs.«140889_j40303973106022_1_alg».proof.Proof.Gen.ReferenceIdeal.Run
import proofs.«140889_j40303973106022_1_alg».proof.Proof.Gen.ReferenceIdeal.Read
import proofs.«140889_j40303973106022_1_alg».proof.Proof.Grid
import proofs.«140889_j40303973106022_1_alg».proof.Proof.Reference
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: it runs, and never writes an argument. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From argument arrays that agree, the kernel's result array and the reference's last value are both the
    specification's result. -/
theorem algebraic : Cert.algebraic_KernelIdeal_ReferenceIdeal := by
  intro m ρ m' ρ' _ hagree
  refine ⟨fun c => Cert.Spec.mean (Cert.KernelIdeal.Grid.feat m c) (Cert.KernelIdeal.Grid.inc m c),
    Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Meaning.result_is_mean, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
